-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096 .f32) (main_arg2 : FVec F S4096x4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1x512 : Shape := ⟨2, ![1, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.DenseSpec.lean ====
/-
  The dense layer as one function of its four arrays, on the extended reals, and the one law that joins the
  tiled kernel to it.

  out[b, o] = (∑ i < 4096, (x[b, i] · bern[i]) · M[i, o]) + m[o].

  A kernel that walks the contraction axis in 8 tiles of 512 computes, for each entry, the eight partial sums one
  after the other from zero and adds the bias last. Addition on the extended reals is commutative and associative
  (an additive commutative monoid: the conventions at the infinities do not disturb that), so the eight partial sums
  add up to the whole sum whatever the entries are: no finiteness is used anywhere.
-/
import Idealize.ShloMosaic.PureOps.Ideal
import Idealize.ShloMosaic.Lib.ValueIdx
import proofs.«174556_j4252017623323_2_alg».proof.Proof.LibFiniteSums

noncomputable section

open scoped BigOperators

namespace Cert.DenseSpec

open Idealize.ShloMosaic Idealize.ShloMosaic.ValueIdx

/-- A 4096 × 4096 array of extended reals, and a vector of 4096 of them. -/
abbrev Mat := FVec Ideal ⟨2, ![4096, 4096]⟩ .f32
abbrev Vec1 := FVec Ideal ⟨1, ![4096]⟩ .f32

/-- The dense layer: entry (b, o) is the sum over i of (x[b, i] · bern[i]) · M[i, o], plus m[o]. -/
def dense (x : Mat) (bern : Vec1) (M : Mat) (mb : Vec1) : Mat :=
  fun i => (∑ k : Fin 4096, (x (ix2 (i 0) k) * bern (ix1 k)) * M (ix2 k (i 1))) + mb (ix1 (i 1))

/-- Entry (r, c) of a matrix by natural-number coordinates (zero outside the matrix: never read there). -/
def at2 (A : Mat) (r c : ℕ) : EReal :=
  if h : r < 4096 ∧ c < 4096 then A (ix2 ⟨r, h.1⟩ ⟨c, h.2⟩) else 0

/-- Entry c of a vector by a natural-number coordinate (zero outside: never read there). -/
def at1 (v : Vec1) (c : ℕ) : EReal :=
  if h : c < 4096 then v (ix1 ⟨c, h⟩) else 0

theorem at2_eq (A : Mat) (r c : ℕ) (hr : r < 4096) (hc : c < 4096) : at2 A r c = A (ix2 ⟨r, hr⟩ ⟨c, hc⟩) := by
  unfold at2; rw [dif_pos ⟨hr, hc⟩]

theorem at1_eq (v : Vec1) (c : ℕ) (hc : c < 4096) : at1 v c = v (ix1 ⟨c, hc⟩) := by
  unfold at1; rw [dif_pos hc]

/-- Tile s of the contraction for the entry (row, col): the partial sum over the contraction positions
    512·s … 512·s + 511. -/
def tileSum (x : Mat) (bern : Vec1) (M : Mat) (row col s : ℕ) : EReal :=
  ∑ kk : Fin 512, (at2 x row (512 * s + kk.val) * at1 bern (512 * s + kk.val)) * at2 M (512 * s + kk.val) col

/-- The contraction tile by tile: the partial sums of the eight tiles, added from zero, and the bias added last, are
    the dense layer's entry. -/
theorem tiles_eq_dense (x : Mat) (bern : Vec1) (M : Mat) (mb : Vec1) (i : (⟨2, ![4096, 4096]⟩ : Shape).Idx) :
    (0 + ∑ s ∈ Finset.range 8, tileSum x bern M (i 0).val (i 1).val s) + at1 mb (i 1).val = dense x bern M mb i := by
  unfold dense tileSum
  rw [zero_add, at1_eq mb _ (i 1).isLt, Finset.sum_range,
    Cert.LibFiniteSums.sum_split 8 512 4096 rfl
      (fun k : Fin 4096 => (x (ix2 (i 0) k) * bern (ix1 k)) * M (ix2 k (i 1)))]
  refine congrArg (· + mb (ix1 (i 1))) (Finset.sum_congr rfl fun s _ => Finset.sum_congr rfl fun kk _ => ?_)
  have hs : s.val < 8 := s.isLt
  have hk : kk.val < 512 := kk.isLt
  have hb : 512 * s.val + kk.val < 4096 := by omega
  rw [at2_eq x _ _ (i 0).isLt hb, at1_eq bern _ hb, at2_eq M _ _ hb (i 1).isLt]
  have e : (⟨512 * s.val + kk.val, hb⟩ : Fin 4096) = ⟨kk.val + 512 * s.val, by omega⟩ := Fin.ext (Nat.add_comm _ _)
  rw [e]
  rfl

end Cert.DenseSpec

end
-- ==== Proof.RefIsDense.lean ====
/-
  The reference computes the dense layer.

  Its host program broadcasts bern along the rows, multiplies x by it entry by entry, contracts the product's columns
  with M's rows, and adds m broadcast along the rows. Read at an entry (b, o) that is the sum over i of
  (x[b, i] · bern[i]) · M[i, o], plus m[o]: the specification, term for term.
-/
import proofs.«174556_j4252017623323_2_alg».proof.Proof.Gen.ReferenceIdeal.Read
import proofs.«174556_j4252017623323_2_alg».proof.Proof.DenseSpec

noncomputable section

open scoped BigOperators

namespace Cert.RefDense

open Cert.ReferenceIdeal Cert.ReferenceIdeal.Read Idealize.ShloMosaic Idealize.ShloMosaic.ValueIdx Cert.DenseSpec

/-- The reference's last stage, as a function of the four arguments, is the dense layer. -/
theorem ref_eq_dense (x : Mat) (bern : Vec1) (M : Mat) (mb : Vec1) :
    val_main_v6 (F := Ideal) x bern M mb = dense x bern M mb := by
  funext i
  rw [val_main_v6_apply, val_main_v3_apply, val_main_v5_apply, val_main_v4_apply]
  unfold dense
  have eb : idx_main_v4 (idx_main_v5 i) = ix1 (i 1) := funext fun a => by match a with | ⟨0, _⟩ => rfl
  rw [eb]
  refine congrArg (· + mb (ix1 (i 1))) (Finset.sum_congr rfl fun k _ => ?_)
  rw [val_main_v2_apply, val_main_v1_apply, val_main_v0_apply]
  have el : lidx_main_v3 i k = ix2 (i 0) k := funext fun a => by match a with | ⟨0, _⟩ => rfl | ⟨1, _⟩ => rfl
  have er : ridx_main_v3 i k = ix2 k (i 1) := funext fun a => by match a with | ⟨0, _⟩ => rfl | ⟨1, _⟩ => rfl
  have ek : idx_main_v0 (idx_main_v1 (ix2 (i 0) k)) = ix1 k := funext fun a => by match a with | ⟨0, _⟩ => rfl
  rw [el, er, ek]
  rfl

end Cert.RefDense

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.PointTerm.lean ====
/-
  One grid point's arithmetic, read at an entry, on the extended reals.

  At each point the kernel holds a 2048 × 512 tile of x, the matching 512 entries of bern (a 1 × 512 row), a
  512 × 1024 tile of M and, on the last point of a run, 1024 entries of m (a 1 × 1024 row). Three values are stored:
    * the zero tile (first point of a run);
    * the accumulator plus the tile product: entry (p, q) gains ∑ over the 512 contraction positions kk of
      (x[p, kk] · bern[kk]) · M[kk, q] — the rounding of both factors to bf16 on the way into the matrix unit is the
      identity on extended reals, and the product lands in a zero accumulator, so it is the plain sum;
    * the accumulator plus m's row broadcast down the rows (last point of a run).
-/
import proofs.«174556_j4252017623323_2_alg».proof.Proof.Gen.KernelIdeal.Skeleton
import proofs.«174556_j4252017623323_2_alg».proof.Proof.LibDenseLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelDense

open Cert.KernelIdeal Cert.KernelIdeal.Gen Idealize.ShloMosaic Idealize.ShloMosaic.ValueIdx

/-- The tile the first point of a run stores first is zero everywhere. -/
theorem zero_tile_apply (y : S2048x1024.Idx) : k0_pay1 (F := Ideal) y = 0 :=
  Ideal.ofBits_zero_f32

/-- The accumulation step at an entry: the accumulator's entry plus the tile product's. -/
theorem tile_step_apply (x0 : FVec Ideal S2048x512 .f32) (x1 : FVec Ideal S1x512 .f32) (x2 : FVec Ideal S512x1024 .f32)
    (acc : FVec Ideal S2048x1024 .f32) (p : Fin 2048) (q : Fin 1024) :
    k0_pay2 (F := Ideal) x0 x1 x2 acc (ix2 p q)
      = acc (ix2 p q) + ∑ kk : Fin 512, (x0 (ix2 p kk) * x1 (ix2 (0 : Fin 1) kk)) * x2 (ix2 kk q) := by
  unfold k0_pay2
  refine (addf_apply _ _ (ix2 p q)).trans ?_
  refine congrArg₂ (· + ·) (congrFun (shapeCast_self acc _) (ix2 p q)) ?_
  refine (DenseLayers.matmul_rowcol_zero_apply Facts₀.dot_S2048x512_S512x1024_S2048x1024_1_0_0_1_n_n_wf none _ _ p q).trans ?_
  refine Finset.sum_congr rfl fun kk _ => ?_
  refine congrArg₂ (· * ·) ?_ rfl
  refine (mulf_apply _ _ (ix2 p kk)).trans ?_
  refine congrArg (x0 (ix2 p kk) * ·) ?_
  refine (broadcastTo_1b_ab_apply _ _ p kk).trans ?_
  exact congrFun (shapeCast_self x1 _) (ix2 (0 : Fin 1) kk)

/-- The bias step at an entry: the accumulator's entry plus the bias row's entry of that column. -/
theorem bias_step_apply (v : FVec Ideal S2048x1024 .f32) (x3 : FVec Ideal S1x1024 .f32) (p : Fin 2048) (q : Fin 1024) :
    k0_pay3 (F := Ideal) v x3 (ix2 p q) = v (ix2 p q) + x3 (ix2 (0 : Fin 1) q) := by
  unfold k0_pay3
  refine (addf_apply _ _ (ix2 p q)).trans ?_
  refine congrArg₂ (· + ·) (congrFun (shapeCast_self v _) (ix2 p q)) ?_
  refine (broadcastTo_1b_ab_apply _ _ p q).trans ?_
  exact congrFun (shapeCast_self x3 _) (ix2 (0 : Fin 1) q)

end Cert.KernelDense

end
-- ==== Proof.BlockReads.lean ====
/-
  What each window holds at a grid point, entry by entry.

  The grid is 2 × 4 × 8: point n has row block n / 32, column block (n / 8) mod 4 and contraction tile n mod 8.
  At point n the x window holds rows 2048·(n / 32) … and columns 512·(n mod 8) … of x; the bern window the entries
  512·(n mod 8) … of bern (through the host's reshape to one row); the M window rows 512·(n mod 8) … and columns
  1024·((n / 8) mod 4) … of M; the m window the entries 1024·((n / 8) mod 4) … of m (again through a reshape to one
  row). An entry of a window's block sits in its array at block index × block size + the entry's own coordinate.
-/
import proofs.«174556_j4252017623323_2_alg».proof.Proof.Gen.KernelIdeal.Frame
import proofs.«174556_j4252017623323_2_alg».proof.Proof.DenseSpec
import Idealize.ShloMosaic.Lib.ValueIdx
import Idealize.ShloMosaic.Lib.ValueLayout
import Idealize.ShloMosaic.Lib.StableHlo.Run

noncomputable section

namespace Cert.KernelDense

open Cert.KernelIdeal Cert.KernelIdeal.Gen Idealize.ShloMosaic Idealize.ShloMosaic.TcCoe Idealize.SL.Sem
open Idealize.ShloMosaic.ValueIdx Cert.DenseSpec

variable (m : (ℓ : Loc nD τ sig) → Buf (Elt Ideal) ℓ)

/-- The printed index maps, decided over the 64 grid points. -/
theorem grid_facts : ∀ t : Fin cfg0.N,
    win0_0.index t (0 : Fin 2) = t.val / 32 ∧ win0_0.index t (1 : Fin 2) = t.val % 8
    ∧ win0_1.index t (0 : Fin 2) = 0 ∧ win0_1.index t (1 : Fin 2) = t.val % 8
    ∧ win0_2.index t (0 : Fin 2) = t.val % 8 ∧ win0_2.index t (1 : Fin 2) = t.val / 8 % 4
    ∧ win0_3.index t (0 : Fin 2) = 0 ∧ win0_3.index t (1 : Fin 2) = t.val / 8 % 4 :=
  (by decide +kernel : ∀ t : Fin grid0.N, _)

/-- The row the region finds bern in: the host's reshape of bern to 1 × 4096. -/
theorem bern_row (c : Dev nD) :
    (V m c main_v0 : S1x4096.Idx → EReal)
      = shapeCast S1x4096 (m ((c : Thread nD τ).loc main_arg1)) shapeCasts_S4096_S1x4096 := by
  dsimp only [V, hostOps0]; after_results; rfl

/-- The row the region finds m in: the host's reshape of m to 1 × 4096. -/
theorem bias_row (c : Dev nD) :
    (V m c main_v1 : S1x4096.Idx → EReal)
      = shapeCast S1x4096 (m ((c : Thread nD τ).loc main_arg3)) shapeCasts_S4096_S1x4096 := by
  dsimp only [V, hostOps0]; after_results; rfl

/-- The x window at a point, at an entry. -/
theorem x_tile_apply (c : Dev nD) (t : Fin cfg0.N) (p : Fin 2048) (kk : Fin 512) :
    iblk m c 0 t (ix2 p kk)
      = at2 (m ((c : Thread nD τ).loc main_arg0)) (2048 * (t.val / 32) + p.val) (512 * (t.val % 8) + kk.val) := by
  obtain ⟨e0, e1, -⟩ := grid_facts t
  have hN : t.val < 64 := lt_of_lt_of_eq t.isLt N_0
  have hp := p.isLt
  have hk := kk.isLt
  rw [at2_eq _ _ _ (by omega) (by omega)]
  show V m c main_arg0 (((cfg0.win 0).blk t).view.emb (ix2 p kk)) = _
  rw [V_main_arg0 m c]
  refine congrArg (m ((c : Thread nD τ).loc main_arg0)) (funext fun a => Fin.ext ?_)
  match a with
  | ⟨0, _⟩ => show win0_0.index t (0 : Fin 2) * 2048 + 1 * p.val = 2048 * (t.val / 32) + p.val; rw [e0]; omega
  | ⟨1, _⟩ => show win0_0.index t (1 : Fin 2) * 512 + 1 * kk.val = 512 * (t.val % 8) + kk.val; rw [e1]; omega

/-- The M window at a point, at an entry. -/
theorem w_tile_apply (c : Dev nD) (t : Fin cfg0.N) (kk : Fin 512) (q : Fin 1024) :
    iblk m c 2 t (ix2 kk q)
      = at2 (m ((c : Thread nD τ).loc main_arg2)) (512 * (t.val % 8) + kk.val) (1024 * (t.val / 8 % 4) + q.val) := by
  obtain ⟨-, -, -, -, e0, e1, -⟩ := grid_facts t
  have hN : t.val < 64 := lt_of_lt_of_eq t.isLt N_0
  have hq := q.isLt
  have hk := kk.isLt
  rw [at2_eq _ _ _ (by omega) (by omega)]
  show V m c main_arg2 (((cfg0.win 2).blk t).view.emb (ix2 kk q)) = _
  rw [V_main_arg2 m c]
  refine congrArg (m ((c : Thread nD τ).loc main_arg2)) (funext fun a => Fin.ext ?_)
  match a with
  | ⟨0, _⟩ => show win0_2.index t (0 : Fin 2) * 512 + 1 * kk.val = 512 * (t.val % 8) + kk.val; rw [e0]; omega
  | ⟨1, _⟩ => show win0_2.index t (1 : Fin 2) * 1024 + 1 * q.val = 1024 * (t.val / 8 % 4) + q.val; rw [e1]; omega

/-- The bern window at a point, at an entry of its one row. -/
theorem bern_tile_apply (c : Dev nD) (t : Fin cfg0.N) (kk : Fin 512) :
    iblk m c 1 t (ix2 (0 : Fin 1) kk) = at1 (m ((c : Thread nD τ).loc main_arg1)) (512 * (t.val % 8) + kk.val) := by
  obtain ⟨-, -, e0, e1, -⟩ := grid_facts t
  have hN : t.val < 64 := lt_of_lt_of_eq t.isLt N_0
  have hk := kk.isLt
  have hb : 512 * (t.val % 8) + kk.val < 4096 := by omega
  rw [at1_eq _ _ hb]
  show V m c main_v0 (((cfg0.win 1).blk t).view.emb (ix2 (0 : Fin 1) kk)) = _
  have ei : ((cfg0.win 1).blk t).view.emb (ix2 (0 : Fin 1) kk) = ix2 (0 : Fin 1) (⟨512 * (t.val % 8) + kk.val, hb⟩ : Fin 4096) := by
    funext a; apply Fin.ext
    match a with
    | ⟨0, _⟩ => show win0_1.index t (0 : Fin 2) * 1 + 1 * 0 = 0; rw [e0]
    | ⟨1, _⟩ => show win0_1.index t (1 : Fin 2) * 512 + 1 * kk.val = 512 * (t.val % 8) + kk.val; rw [e1]; omega
  rw [ei]
  refine (congrFun (bern_row m c) _).trans ?_
  exact shapeCast_a_1a_apply _ _ (0 : Fin 1) _

/-- The m window at a point, at an entry of its one row. -/
theorem bias_tile_apply (c : Dev nD) (t : Fin cfg0.N) (q : Fin 1024) :
    iblk m c 3 t (ix2 (0 : Fin 1) q) = at1 (m ((c : Thread nD τ).loc main_arg3)) (1024 * (t.val / 8 % 4) + q.val) := by
  obtain ⟨-, -, -, -, -, -, e0, e1⟩ := grid_facts t
  have hN : t.val < 64 := lt_of_lt_of_eq t.isLt N_0
  have hq := q.isLt
  have hb : 1024 * (t.val / 8 % 4) + q.val < 4096 := by omega
  rw [at1_eq _ _ hb]
  show V m c main_v1 (((cfg0.win 3).blk t).view.emb (ix2 (0 : Fin 1) q)) = _
  have ei : ((cfg0.win 3).blk t).view.emb (ix2 (0 : Fin 1) q) = ix2 (0 : Fin 1) (⟨1024 * (t.val / 8 % 4) + q.val, hb⟩ : Fin 4096) := by
    funext a; apply Fin.ext
    match a with
    | ⟨0, _⟩ => show win0_3.index t (0 : Fin 2) * 1 + 1 * 0 = 0; rw [e0]
    | ⟨1, _⟩ => show win0_3.index t (1 : Fin 2) * 1024 + 1 * q.val = 1024 * (t.val / 8 % 4) + q.val; rw [e1]; omega
  rw [ei]
  refine (congrFun (bias_row m c) _).trans ?_
  exact shapeCast_a_1a_apply _ _ (0 : Fin 1) _

end Cert.KernelDense

end
-- ==== Proof.KernelIsDense.lean ====
/-
  The kernel computes the dense layer.

  The output tile of a run of eight consecutive grid points is an accumulator: the first point zeroes it and adds
  its tile product, each later point adds its own, and the last also adds m's row. Entry by entry that is
  ((((0 + a₀) + a₁) + … ) + a₇) + m[o], with aₛ the partial sum of the contraction over tile s. The run that owns an
  entry (b, o) of the result is the one with row block b / 2048 and column block o / 1024, the entry sitting at
  (b mod 2048, o mod 1024) of its tile; there the eight partial sums are those of the entry (b, o) itself, and the sum
  over the tiles is the whole contraction (the specification's one law).
-/
import proofs.«174556_j4252017623323_2_alg».proof.Proof.Gen.KernelIdeal.Value
import proofs.«174556_j4252017623323_2_alg».proof.Proof.PointTerm
import proofs.«174556_j4252017623323_2_alg».proof.Proof.BlockReads

noncomputable section

open scoped BigOperators

namespace Cert.KernelDense

open Cert.KernelIdeal Cert.KernelIdeal.Gen Cert.KernelIdeal.Value Idealize.ShloMosaic Idealize.ShloMosaic.TcCoe
open Idealize.SL.Sem Idealize.ShloMosaic.ValueIdx Cert.DenseSpec

variable (m : (ℓ : Loc nD τ sig) → Buf (Elt Ideal) ℓ)

/-- What grid point n adds to the entry y of its output tile: the partial sum, over the point's contraction tile, of
    the entry of the result that y is at that point. -/
def addend (c : Dev nD) (n : ℕ) (y : S2048x1024.Idx) : EReal :=
  tileSum (m ((c : Thread nD τ).loc main_arg0)) (m ((c : Thread nD τ).loc main_arg1)) (m ((c : Thread nD τ).loc main_arg2))
    (2048 * (n / 32) + (y 0).val) (1024 * (n / 8 % 4) + (y 1).val) (n % 8)

/-- The accumulation step on a point's blocks, at an entry. -/
theorem step_at (c : Dev nD) (t : Fin cfg0.N) (acc : FVec Ideal S2048x1024 .f32) (y : S2048x1024.Idx) :
    k0_pay2 (F := Ideal) (iblk m c 0 t) (iblk m c 1 t) (iblk m c 2 t) acc y = acc y + addend m c t.val y := by
  obtain ⟨p, q, rfl⟩ : ∃ (p : Fin 2048) (q : Fin 1024), y = ix2 p q := ⟨y 0, y 1, eq_ix2 y⟩
  refine (tile_step_apply (iblk m c 0 t) (iblk m c 1 t) (iblk m c 2 t) acc p q).trans ?_
  refine congrArg (acc (ix2 p q) + ·) ?_
  unfold addend tileSum
  refine Finset.sum_congr rfl fun kk _ => ?_
  rw [x_tile_apply m c t p kk, bern_tile_apply m c t kk, w_tile_apply m c t kk q]

/-- The first point of a run leaves zero plus its addend. -/
theorem reset_at (c : Dev nD) (n : ℕ) (h : n < cfg0.N) (y : S2048x1024.Idx) :
    reset4 m c n h y = 0 + addend m c n y := by
  unfold reset4
  refine (step_at m c ⟨n, h⟩ (k0_pay1 (F := Ideal)) y).trans ?_
  rw [zero_tile_apply]

/-- A middle point of a run adds its addend. -/
theorem step_mid (c : Dev nD) (n : ℕ) (h : n < cfg0.N) (acc : FVec Ideal S2048x1024 .f32) (y : S2048x1024.Idx)
    (h0 : ¬n % 8 = 0) (h7 : ¬n % 8 = 7) : step4 m c n h acc y = acc y + addend m c n y := by
  unfold step4
  rw [if_pos ⟨h0, h7⟩]
  exact step_at m c ⟨n, h⟩ acc y

/-- The last point of a run adds its addend and then the bias entry of the column. -/
theorem step_last (c : Dev nD) (n : ℕ) (h : n < cfg0.N) (acc : FVec Ideal S2048x1024 .f32) (y : S2048x1024.Idx)
    (h0 : ¬n % 8 = 0) (h7 : n % 8 = 7) :
    step4 m c n h acc y
      = (acc y + addend m c n y) + at1 (m ((c : Thread nD τ).loc main_arg3)) (1024 * (n / 8 % 4) + (y 1).val) := by
  unfold step4
  rw [if_neg (fun hh => hh.2 h7), if_pos ⟨h0, h7⟩]
  obtain ⟨p, q, rfl⟩ : ∃ (p : Fin 2048) (q : Fin 1024), y = ix2 p q := ⟨y 0, y 1, eq_ix2 y⟩
  refine (bias_step_apply (k0_pay2 (F := Ideal) (iblk m c 0 ⟨n, h⟩) (iblk m c 1 ⟨n, h⟩) (iblk m c 2 ⟨n, h⟩) acc)
    (iblk m c 3 ⟨n, h⟩) p q).trans ?_
  rw [step_at m c ⟨n, h⟩ acc (ix2 p q), bias_tile_apply m c ⟨n, h⟩ q]

/-- The whole run's fold at an entry of the tile: zero, plus the eight addends, plus the bias entry. -/
theorem fold_eq (c : Dev nD) (r : ℕ) (h : 8 * r + 7 < cfg0.N) (y : S2048x1024.Idx) :
    Pipeline.accAt (reset4 m c) (step4 m c) (8 * r) 7 h y
      = (0 + ∑ s ∈ Finset.range 8, addend m c (8 * r + s) y)
        + at1 (m ((c : Thread nD τ).loc main_arg3)) (1024 * ((8 * r + 7) / 8 % 4) + (y 1).val) := by
  have hN : 8 * r + 7 < 64 := lt_of_lt_of_eq h N_0
  refine (congrFun (Pipeline.accAt_succ (reset4 m c) (step4 m c) (8 * r) 6 h) y).trans ?_
  refine (step_last m c (8 * r + (6 + 1)) h _ y (by omega) (by omega)).trans ?_
  have hmid := Pipeline.accAt_add_apply (reset4 m c) (step4 m c) (fun _ => (0 : EReal)) (addend m c) (8 * r) 6
    (fun h' y' => reset_at m c (8 * r) h' y')
    (fun n h' acc y' h1 h2 => step_mid m c n h' acc y' (by omega) (by omega)) 6 le_rfl (Nat.lt_of_succ_lt h) y
  rw [hmid]
  refine congrArg₂ (· + ·) ?_ rfl
  rw [add_assoc]
  exact congrArg (0 + ·) (Finset.sum_range_succ (fun s => addend m c (8 * r + s) y) 7).symm

/-- THE KERNEL'S RESULT ARRAY is the dense layer of the four argument arrays. -/
theorem kernel_eq_dense (c : Dev nD) :
    G4 (F := Ideal) m c
      = dense (m ((c : Thread nD τ).loc main_arg0)) (m ((c : Thread nD τ).loc main_arg1))
          (m ((c : Thread nD τ).loc main_arg2)) (m ((c : Thread nD τ).loc main_arg3)) := by
  funext i
  have hi0 : (i 0).val < 4096 := (i 0).isLt
  have hi1 : (i 1).val < 4096 := (i 1).isLt
  have hN : 8 * run4Of i + 7 < cfg0.N := by
    rw [show cfg0.N = 64 from N_0]
    show 8 * (4 * ((i 0).val / 2048 - 0) + 1 * ((i 1).val / 1024 - 0)) + 7 < 64
    omega
  unfold G4
  rw [dif_pos hN, fold_eq m c (run4Of i) hN (loc4Of i), ← tiles_eq_dense]
  refine congrArg₂ (· + ·) (congrArg (0 + ·) (Finset.sum_congr rfl fun s hs => ?_)) (congrArg (at1 _) ?_)
  · have hs8 : s < 8 := Finset.mem_range.mp hs
    unfold addend
    have a0 : 2048 * ((8 * run4Of i + s) / 32) + (loc4Of i 0).val = (i 0).val := by
      show 2048 * ((8 * (4 * ((i 0).val / 2048 - 0) + 1 * ((i 1).val / 1024 - 0)) + s) / 32) + (i 0).val % 2048 = (i 0).val
      omega
    have a1 : 1024 * ((8 * run4Of i + s) / 8 % 4) + (loc4Of i 1).val = (i 1).val := by
      show 1024 * ((8 * (4 * ((i 0).val / 2048 - 0) + 1 * ((i 1).val / 1024 - 0)) + s) / 8 % 4) + (i 1).val % 1024 = (i 1).val
      omega
    have a2 : (8 * run4Of i + s) % 8 = s := by omega
    rw [a0, a1, a2]
  · show 1024 * ((8 * (4 * ((i 0).val / 2048 - 0) + 1 * ((i 1).val / 1024 - 0)) + 7) / 8 % 4) + (i 1).val % 1024 = (i 1).val
    omega

end Cert.KernelDense

end
-- ==== Proof.lean ====
/-
  A dense layer with a Bernoulli mask on its input features: out = (x · bern) M + m, for x and M of 4096 × 4096 and
  bern and m of 4096 entries.

  The kernel tiles the product: a grid of 2 × 4 × 8 points, a 2048 × 1024 tile of the result per (row block, column
  block), and the contraction walked in eight tiles of 512 along the innermost grid axis, the result tile itself the
  accumulator — zeroed at the first tile, the tile product (x's tile scaled column-wise by bern's entries, times M's
  tile) added at each, m's entries added after the last. The reference scales x's columns by bern, contracts with M in
  one product and adds m.

  On the extended reals both are, at entry (b, o), ∑ over i of (x[b, i] · bern[i]) · M[i, o], plus m[o]
  (Proof/DenseSpec.lean): the rounding of the factors to bf16 before the matrix unit is the identity there, and the eight
  partial sums added from zero are the whole sum because addition of extended reals is commutative and associative
  whatever the entries are — the inputs' finiteness is never used. The reference's side is Proof/RefIsDense.lean; the
  kernel's side is Proof/PointTerm.lean (one point's arithmetic at an entry), Proof/BlockReads.lean (what each window
  holds at a point) and Proof/KernelIsDense.lean (the run of eight points folded, and the result array whole).
  The idealization rewrote nothing, so the kernel and its idealized form are the same program.
-/
import proofs.«174556_j4252017623323_2_alg».proof.Defs
import proofs.«174556_j4252017623323_2_alg».proof.Proof.Gen.Kernel.Frame
import proofs.«174556_j4252017623323_2_alg».proof.Proof.Gen.KernelIdeal.Value
import proofs.«174556_j4252017623323_2_alg».proof.Proof.Gen.Pre_finite_inputs
import proofs.«174556_j4252017623323_2_alg».proof.Proof.Gen.ReferenceIdeal.Run
import proofs.«174556_j4252017623323_2_alg».proof.Proof.RefIsDense
import proofs.«174556_j4252017623323_2_alg».proof.Proof.KernelIsDense
import Idealize.ShloMosaic.Adequacy
import Idealize.ShloMosaic.Init

noncomputable section

namespace Cert.Proof

open Idealize.ShloMosaic Idealize.SL.Sem

/-- The idealized kernel terminates without a fault and leaves its four arguments as they were: its value run,
    with the result array dropped. -/
theorem frame_KernelIdeal : frame_KernelIdeal := fun m ρ _ =>
  (θ_run Cert.KernelIdeal.defs _ _).mono (fun _ h c => (h c).2) (Cert.KernelIdeal.Value.run (F := Ideal) m ρ)

/-- The same for the reference: its run, with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments both programs end with the dense layer of those arguments in their
    result arrays: the kernel's array is the fold of its runs of eight points, which is the dense layer
    (`KernelDense.kernel_eq_dense`), and the reference's last stage is the dense layer (`RefDense.ref_eq_dense`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.KernelDense.kernel_eq_dense m c]
  exact (Cert.ReferenceIdeal.Read.val_main_v6_eq _ _ _ _).trans (Cert.RefDense.ref_eq_dense _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
